-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S1x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S2048x2048_S2048x2048_1_0 : S2048x2048.Transposes [1, 0] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Spec.lean ====
/-
  The function both programs compute, over the extended reals.

  For an activation array `x : [8192, 2048]`, a weight array `w : [2048, 2048]` (one row per output feature) and a
  bias `b : [2048]`, entry `(r, o)` of the result is

      (∑ k < 2048, sign x[r, k] · sign w[o, k]) + b[o],

  the product of the two arrays' SIGN patterns (each factor is -1, 0 or 1), contracted over the input features,
  plus the bias of the output feature. `Ideal.sign` is the sign on the extended reals: -1 below zero (at -∞ too),
  1 above zero (at +∞ too), 0 at zero.

  The kernel and the reference write this same sum with the same terms in the same order of `k`; no law of
  arithmetic beyond reading each operation at an index is needed to identify them, so nothing here depends on the
  inputs being finite.
-/
import Idealize.ShloMosaic.PureOps.Ideal
import Idealize.ShloMosaic.Lib.ValueIdx

noncomputable section

open scoped BigOperators
open Idealize.ShloMosaic Idealize.ShloMosaic.ValueIdx

namespace Cert.TernaryLinear

/-- Entry `(r, o)` of the result: the signs of row `r` of `x` against the signs of row `o` of `w`, summed over the
    2048 input features, plus `b[o]`. -/
def entry (x : (⟨2, ![8192, 2048]⟩ : Shape).Idx → EReal) (w : (⟨2, ![2048, 2048]⟩ : Shape).Idx → EReal)
    (b : (⟨1, ![2048]⟩ : Shape).Idx → EReal) (r : Fin 8192) (o : Fin 2048) : EReal :=
  (∑ k : Fin 2048, Ideal.sign (x (ix2 r k)) * Ideal.sign (w (ix2 o k))) + b (ix1 o)

/-- The whole result array, index by index. -/
def out (x : (⟨2, ![8192, 2048]⟩ : Shape).Idx → EReal) (w : (⟨2, ![2048, 2048]⟩ : Shape).Idx → EReal)
    (b : (⟨1, ![2048]⟩ : Shape).Idx → EReal) : (⟨2, ![8192, 2048]⟩ : Shape).Idx → EReal :=
  fun i => entry x w b (i 0) (i 1)

/-- At an index given by its coordinates the result is the entry. -/
theorem out_apply (x : (⟨2, ![8192, 2048]⟩ : Shape).Idx → EReal) (w : (⟨2, ![2048, 2048]⟩ : Shape).Idx → EReal)
    (b : (⟨1, ![2048]⟩ : Shape).Idx → EReal) (r : Fin 8192) (o : Fin 2048) :
    out x w b (ix2 r o) = entry x w b r o := rfl

end Cert.TernaryLinear

end
-- ==== Proof.RefSide.lean ====
/-
  The reference's result is the specification.

  The reference takes the sign of both arrays on the host, contracts axis 1 of the activations' signs against axis 1
  of the weights' signs (`einsum 'bi,oi->bo'`), and adds the bias broadcast over the rows. Read at `(r, o)`: the
  contraction is the sum over `k` of `sign x[r, k] · sign w[o, k]`, and the twice-broadcast bias is `b[o]`.
-/
import proofs.«101530_j48756468744436_1_alg».proof.Proof.Spec
import proofs.«101530_j48756468744436_1_alg».proof.Proof.Gen.ReferenceIdeal.Read

noncomputable section

open scoped BigOperators
open Idealize.ShloMosaic Idealize.ShloMosaic.ValueIdx

namespace Cert.ReferenceIdeal.RefValue

open Cert.ReferenceIdeal Cert.ReferenceIdeal.Read

/-- The left operand's index at output `(r, o)` and contraction coordinate `k` is `(r, k)`. -/
theorem lidx_eq (r : Fin 8192) (o k : Fin 2048) : lidx_main_v2 (ix2 r o) k = ix2 r k :=
  funext fun a => Fin.ext (by match a with | ⟨0, _⟩ => rfl | ⟨1, _⟩ => rfl)

/-- The right operand's index at output `(r, o)` and contraction coordinate `k` is `(o, k)`. -/
theorem ridx_eq (r : Fin 8192) (o k : Fin 2048) : ridx_main_v2 (ix2 r o) k = ix2 o k :=
  funext fun a => Fin.ext (by match a with | ⟨0, _⟩ => rfl | ⟨1, _⟩ => rfl)

/-- Through both broadcasts, output `(r, o)` reads the bias at `o`. -/
theorem bidx_eq (r : Fin 8192) (o : Fin 2048) : idx_main_v3 (idx_main_v4 (ix2 r o)) = ix1 o :=
  funext fun a => Fin.ext (by match a with | ⟨0, _⟩ => rfl)

/-- The reference's result array, as a function of its three arguments, is the specification. -/
theorem result_eq (x : (⟨S8192x2048, .f32⟩ : BufTy).Contents (Elt Ideal)) (w : (⟨S2048x2048, .f32⟩ : BufTy).Contents (Elt Ideal))
    (b : (⟨S2048, .f32⟩ : BufTy).Contents (Elt Ideal)) :
    val_main_v5 (F := Ideal) x w b = Cert.TernaryLinear.out x w b := by
  funext i
  obtain ⟨r, o, rfl⟩ : ∃ (r : Fin 8192) (o : Fin 2048), i = ix2 r o := ⟨i 0, i 1, eq_ix2 i⟩
  rw [val_main_v5_apply, val_main_v2_apply, val_main_v4_apply, val_main_v3_apply, Cert.TernaryLinear.out_apply]
  simp only [lidx_eq, ridx_eq, bidx_eq, val_main_v0_apply, val_main_v1_apply, Ideal.hostUnary_sign_def, Ideal.addf_def]
  rfl

end Cert.ReferenceIdeal.RefValue

end
-- ==== Proof.KernelBody.lean ====
/-
  The kernel body's stored value, read at one entry of the output block.

  The body loads a `[512, 2048]` block of activations, takes its sign (the select spelling that the sign-bit
  read becomes at the extended reals), multiplies it on the matrix unit by the whole `[2048, 2048]` transposed
  sign-of-weights array into a zero accumulator, and adds the `[1, 2048]` bias row broadcast over the 512 rows.
  Read at `(p, q)` of the block this is

      (∑ k < 2048, sign x0[p, k] · x1[k, q]) + x2[0, q].

  The changes of float format on the way into the matrix unit are the identity on the extended reals, the matrix
  product into the zero accumulator is the plain sum over the contracted coordinate, and the casts of a shape to
  itself are the identity.
-/
import proofs.«101530_j48756468744436_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-! ## The matrix unit's operand indices -/

/-- The left operand is read at the output's row … -/
theorem lhs_row (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl
/-- … and the contracted coordinate, -/
theorem lhs_contr (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q
/-- the right operand at the contracted coordinate … -/
theorem rhs_contr (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q
/-- … and the output's column. -/
theorem rhs_col (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The matrix product into the zero accumulator, at `(p, q)`: row `p` of the left operand against column `q` of the
    right one, summed over the 2048 contracted coordinates. -/
theorem matmul_zero_apply (A : FVec Ideal S512x2048 .bf16) (B : FVec Ideal S2048x2048 .bf16) (p : Fin 512) (q : Fin 2048) :
    matmul dot_S512x2048_S2048x2048_S512x2048_1_0_0_1_n_n none A B (constant (F := Ideal) S512x2048 .f32 0x00000000#32) (ix2 p q)
      = ∑ k : Fin 2048, A (ix2 p k) * B (ix2 k q) := by
  simp only [matmul]
  rw [Ideal.matmul_constant_zero_apply, ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k :=
    funext fun a => Fin.ext (by
      match a with
      | ⟨0, _⟩ => exact lhs_row _ _
      | ⟨1, _⟩ => exact (lhs_contr _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q :=
    funext fun a => Fin.ext (by
      match a with
      | ⟨0, _⟩ => exact (rhs_contr _ _).trans hk
      | ⟨1, _⟩ => exact rhs_col _ _)
  rw [el, er]

/-- The body's sign of a block, at an element, is the sign of the element. -/
theorem sign_apply (x0 : FVec Ideal S512x2048 .f32) (i : S512x2048.Idx) :
    select (cmpf .ogt (absf x0) (broadcast S512x2048 (Scalar.ofBits (F := Ideal) .f32 0x00000000#32)))
        (select (cmpf .olt x0 (constant S512x2048 .f32 0x00000000#32)) (constant S512x2048 .f32 0xBF800000#32)
          (constant S512x2048 .f32 0x3F800000#32)) x0 i
      = Ideal.sign (x0 i) :=
  Ideal.jnp_sign_eq_sign_f32 (x0 i)

/-- THE STORED VALUE AT `(p, q)`: the signs of row `p` of the activation block against column `q` of the second
    operand, plus the bias row at `q`. -/
theorem payload_apply (x0 : Vec Ideal S512x2048 .f32) (x1 : Vec Ideal S2048x2048 .bf16) (x2 : Vec Ideal S1x2048 .f32)
    (p : Fin 512) (q : Fin 2048) :
    k0_pay1 (F := Ideal) x0 x1 x2 (ix2 p q)
      = (∑ k : Fin 2048, Ideal.sign (x0 (ix2 p k)) * x1 (ix2 k q)) + x2 (ix2 (0 : Fin 1) q) := by
  unfold k0_pay1
  refine (addf_apply _ _ _).trans ?_
  congr 1
  · refine (matmul_zero_apply _ _ p q).trans (Finset.sum_congr rfl fun k _ => ?_)
    congr 1
    · exact sign_apply x0 (ix2 p k)
    · exact congrFun (shapeCast_self x1 _) (ix2 k q)
  · refine (broadcastTo_1b_ab_apply _ _ p q).trans ?_
    exact congrFun (shapeCast_self x2 _) (ix2 (0 : Fin 1) q)

end Cert.KernelIdeal.Body

end
-- ==== Proof.HostPrefix.lean ====
/-
  What the kernel's region finds in the two arrays the host prepares for it.

  Before the region the host takes the sign of the weights, changes its float format (the identity on the extended
  reals) and transposes it, so that the second operand of the body's matrix product holds, at `(k, q)`, the sign of
  the weight `w[q, k]`; and it reshapes the bias `[2048]` to one row `[1, 2048]`, which holds `b[q]` at `(0, q)`.
-/
import proofs.«101530_j48756468744436_1_alg».proof.Proof.Gen.KernelIdeal.Frame
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.ValueIdx Idealize.ShloMosaic.TcCoe Idealize.SL.Sem Idealize.ShloMosaic.StableHlo

namespace Cert.KernelIdeal.HostPrefix

open Cert.KernelIdeal Cert.KernelIdeal.Gen

variable (m : (ℓ : Loc nD τ sig) → Buf (Elt Ideal) ℓ)

/-- The array the second window stages: the weights' signs, transposed. -/
theorem weights_eq (c : Dev nD) :
    (V m c main_v2 : S2048x2048.Idx → EReal)
      = transpose S2048x2048 [1, 0] (truncf .bf16 (Host.sign (F := Ideal) (φ := .f32) (m ((c : Thread nD τ).loc main_arg1))) bitsLt_bf16_f32)
          transposes_S2048x2048_S2048x2048_1_0 := by
  dsimp only [Gen.V, Gen.hostOps0]
  after_results

/-- At `(k, q)` it holds the sign of the weight `w[q, k]`. -/
theorem weights_apply (c : Dev nD) (k q : Fin 2048) :
    (V m c main_v2 : S2048x2048.Idx → EReal) (ix2 k q)
      = Ideal.sign ((m ((c : Thread nD τ).loc main_arg1) : S2048x2048.Idx → EReal) (ix2 q k)) := by
  rw [weights_eq]
  exact transpose_ix2_apply _ _ k q

/-- The array the third window stages: the bias as one row. -/
theorem bias_eq (c : Dev nD) :
    (V m c main_v3 : S1x2048.Idx → EReal)
      = shapeCast S1x2048 (m ((c : Thread nD τ).loc main_arg2) : S2048.Idx → EReal) shapeCasts_S2048_S1x2048 := by
  dsimp only [Gen.V, Gen.hostOps0]
  after_results
  rfl

/-- At `(0, q)` it holds `b[q]`. -/
theorem bias_apply (c : Dev nD) (q : Fin 2048) :
    (V m c main_v3 : S1x2048.Idx → EReal) (ix2 (0 : Fin 1) q)
      = (m ((c : Thread nD τ).loc main_arg2) : S2048.Idx → EReal) (ix1 q) := by
  rw [bias_eq]
  exact shapeCast_a_1a_apply _ _ 0 q

end Cert.KernelIdeal.HostPrefix

end
-- ==== Proof.Blocks.lean ====
/-
  From the blocks the grid points write back to the whole result array.

  Grid point `t` (of 16) stages rows `512·t … 512·t + 511` of the activations, the whole transposed
  sign-of-weights array and the whole bias row, and writes back rows `512·t … 512·t + 511` of the result. Entry
  `(p, q)` of what it writes is the body's stored value at `(p, q)`; with the activation block's row `p` being row
  `512·t + p` of the argument, the second operand's `(k, q)` being the sign of the weight `w[q, k]`, and the bias
  row's `(0, q)` being `b[q]`, that is the specification's entry `(512·t + p, q)`. So every point writes its
  block of ONE function of the arguments; the 16 blocks cover the 8192 rows (row `r` lies in the block of point
  `r / 512`), hence the array ends holding that function.
-/
import proofs.«101530_j48756468744436_1_alg».proof.Proof.Spec
import proofs.«101530_j48756468744436_1_alg».proof.Proof.KernelBody
import proofs.«101530_j48756468744436_1_alg».proof.Proof.HostPrefix
import proofs.«101530_j48756468744436_1_alg».proof.Proof.Gen.KernelIdeal.Value
import Idealize.ShloMosaic.Lib.Pipeline.Value

noncomputable section

open scoped BigOperators
open Idealize.ShloMosaic Idealize.ShloMosaic.ValueIdx Idealize.ShloMosaic.TcCoe Idealize.SL.Sem
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The specification at the program's argument arrays on core `c`. -/
abbrev result (c : Dev nD) : S8192x2048.Idx → EReal :=
  Cert.TernaryLinear.out (m ((c : Thread nD τ).loc main_arg0)) (m ((c : Thread nD τ).loc main_arg1)) (m ((c : Thread nD τ).loc main_arg2))

/-- ONE ENTRY, over any blocks: if row `p` of the first block is row `r` of `X`, column `q` of the second holds the
    signs of row `q` of `W`, and the third holds `Bv[q]` at `(0, q)`, the body's stored value at `(p, q)` is the
    specification's entry `(r, q)`. -/
theorem stored_entry (X : S8192x2048.Idx → EReal) (W : S2048x2048.Idx → EReal) (Bv : S2048.Idx → EReal)
    (x0 : Vec Ideal S512x2048 .f32) (x1 : Vec Ideal S2048x2048 .bf16) (x2 : Vec Ideal S1x2048 .f32)
    (r : Fin 8192) (p : Fin 512) (q : Fin 2048)
    (h0 : ∀ k : Fin 2048, x0 (ix2 p k) = X (ix2 r k))
    (h1 : ∀ k : Fin 2048, x1 (ix2 k q) = Ideal.sign (W (ix2 q k)))
    (h2 : x2 (ix2 (0 : Fin 1) q) = Bv (ix1 q)) :
    k0_pay1 (F := Ideal) x0 x1 x2 (ix2 p q) = Cert.TernaryLinear.entry X W Bv r q := by
  rw [Cert.KernelIdeal.Body.payload_apply, h2]
  unfold Cert.TernaryLinear.entry
  congr 1
  exact Finset.sum_congr rfl fun k _ => by rw [h0 k, h1 k]

/-- The printed index maps over the grid: the activations' and the result's block index is `(t, 0)`; the other two
    windows stay at block `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the specification. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨e00, e01, e10, e11, e20, e21, e30, e31⟩ := index_facts t
  have ht : t.val < 16 := lt_of_lt_of_eq t.isLt (show cfg0.N = 16 from N_0)
  funext j
  obtain ⟨p, q, rfl⟩ : ∃ (p : Fin 512) (q : Fin 2048), j = ix2 p q := ⟨j 0, j 1, eq_ix2 j⟩
  have hemb : ((cfg0.win 3).blk t).view.emb (ix2 p q) = ix2 (⟨512 * t.val + p.val, by omega⟩ : Fin 8192) q := by
    funext a; apply Fin.ext
    match a with
    | ⟨0, _⟩ => show win0_3.index t (0 : Fin 2) * 512 + 1 * p.val = 512 * t.val + p.val; omega
    | ⟨1, _⟩ => show win0_3.index t (1 : Fin 2) * 2048 + 1 * q.val = q.val; omega
  show k0_pay1 (F := Ideal) (iblk m c 0 t) (iblk m c 1 t) (iblk m c 2 t) (ix2 p q) = result m c (((cfg0.win 3).blk t).view.emb (ix2 p q))
  rw [hemb]
  show _ = Cert.TernaryLinear.entry _ _ _ (⟨512 * t.val + p.val, by omega⟩ : Fin 8192) q
  refine stored_entry (m ((c : Thread nD τ).loc main_arg0)) (m ((c : Thread nD τ).loc main_arg1)) (m ((c : Thread nD τ).loc main_arg2))
    (iblk m c 0 t) (iblk m c 1 t) (iblk m c 2 t) ⟨512 * t.val + p.val, by omega⟩ p q (fun k => ?_) (fun k => ?_) ?_
  · show V m c main_arg0 (((cfg0.win 0).blk t).view.emb (ix2 p k)) = _
    rw [V_main_arg0]
    refine congrArg _ (funext fun a => Fin.ext ?_)
    match a with
    | ⟨0, _⟩ => show win0_0.index t (0 : Fin 2) * 512 + 1 * p.val = 512 * t.val + p.val; omega
    | ⟨1, _⟩ => show win0_0.index t (1 : Fin 2) * 2048 + 1 * k.val = k.val; omega
  · show V m c main_v2 (((cfg0.win 1).blk t).view.emb (ix2 k q)) = _
    have he : ((cfg0.win 1).blk t).view.emb (ix2 k q) = ix2 k q := by
      funext a; apply Fin.ext
      match a with
      | ⟨0, _⟩ => show win0_1.index t (0 : Fin 2) * 2048 + 1 * k.val = k.val; omega
      | ⟨1, _⟩ => show win0_1.index t (1 : Fin 2) * 2048 + 1 * q.val = q.val; omega
    rw [he]
    exact Cert.KernelIdeal.HostPrefix.weights_apply m c k q
  · show V m c main_v3 (((cfg0.win 2).blk t).view.emb (ix2 (0 : Fin 1) q)) = _
    have he : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 2048 + 1 * q.val = q.val; omega
    rw [he]
    exact Cert.KernelIdeal.HostPrefix.bias_apply m c q

/-- An index of the result array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v4).slice (win0_3.rect t)).set ↔ _
  rw [View.set_slice_whole, Rect.mem_set_unit]
  exact Iff.rfl

/-- Every index of the result array lies in some point's block: row `r` in the block of point `r / 512`. -/
theorem covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  let t : Fin cfg0.N := ⟨(i 0).val / 512, by rw [hN]; omega⟩
  obtain ⟨-, -, -, -, -, -, e30, e31⟩ := index_facts t
  have e30' : win0_3.index t (0 : Fin 2) = (i 0).val / 512 := e30
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT ARRAY after the run is the specification of the argument arrays. -/
theorem final (c : Dev nD) : (dats m 0 c).arrAt 3 cfg0.N = result m c :=
  (dats m 0 c).arrAt_eq_of_cover 3 (result m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Blocks

end
-- ==== Proof.lean ====
/-
  The kernel and its reference compute one function.

  Both programs take activations `x : [8192, 2048]`, weights `w : [2048, 2048]` and a bias `b : [2048]` and return,
  at `(r, o)`,

      (∑ k < 2048, sign x[r, k] · sign w[o, k]) + b[o]                    (Proof/Spec.lean).

  The reference spells it as a contraction of the two sign arrays over their second axes plus the broadcast bias
  (Proof/RefSide.lean). The kernel has the host transpose the weights' signs and lay the bias out as one row
  (Proof/HostPrefix.lean); each of its 16 grid points multiplies the signs of a block of 512 rows of activations by
  the whole transposed array on the matrix unit, adds the bias row (Proof/KernelBody.lean) and writes back the
  matching 512 rows of the result, and the 16 blocks make up the array (Proof/Blocks.lean). Term by term the two
  sums are the same, so the equality holds on all extended reals and the precondition is not used.

  The kernel's sign reads the sign bit of the word; at the extended reals that read is the comparison with zero,
  which is the one conjunct of `preserves`.
-/
import proofs.«101530_j48756468744436_1_alg».proof.Defs
import proofs.«101530_j48756468744436_1_alg».proof.Proof.Gen.Kernel
import proofs.«101530_j48756468744436_1_alg».proof.Proof.Gen.Kernel.Skeleton
import proofs.«101530_j48756468744436_1_alg».proof.Proof.Gen.Kernel.Launch
import proofs.«101530_j48756468744436_1_alg».proof.Proof.Gen.Kernel.Points
import proofs.«101530_j48756468744436_1_alg».proof.Proof.Gen.Kernel.Frame
import proofs.«101530_j48756468744436_1_alg».proof.Proof.Gen.KernelIdeal
import proofs.«101530_j48756468744436_1_alg».proof.Proof.Gen.KernelIdeal.Skeleton
import proofs.«101530_j48756468744436_1_alg».proof.Proof.Gen.KernelIdeal.Launch
import proofs.«101530_j48756468744436_1_alg».proof.Proof.Gen.KernelIdeal.Points
import proofs.«101530_j48756468744436_1_alg».proof.Proof.Gen.KernelIdeal.Frame
import proofs.«101530_j48756468744436_1_alg».proof.Proof.Gen.ReferenceIdeal
import proofs.«101530_j48756468744436_1_alg».proof.Proof.Gen.Pre_finite_inputs
import proofs.«101530_j48756468744436_1_alg».proof.Proof.Gen.KernelIdeal.Value
import proofs.«101530_j48756468744436_1_alg».proof.Proof.Gen.ReferenceIdeal.Run
import proofs.«101530_j48756468744436_1_alg».proof.Proof.Gen.ReferenceIdeal.Read
import proofs.«101530_j48756468744436_1_alg».proof.Proof.Spec
import proofs.«101530_j48756468744436_1_alg».proof.Proof.RefSide
import proofs.«101530_j48756468744436_1_alg».proof.Proof.Blocks
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the sign bit of a block of words is, at the extended reals, comparing each element with zero. -/
theorem preserves : Cert.preserves_Kernel_KernelIdeal :=
  IdealRules.sign_bit.statement Cert.KernelIdeal.S512x2048 .f32

/-- From memories that agree on the three arguments both programs end with the result array at the specification
    of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
